-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S524288x128 .f32) (main_arg1 : FVec F S128x128 .f32) (main_arg2 : FVec F S128x128 .f32) (main_arg3 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩
abbrev S8192x128 : Shape := ⟨2, ![8192, 128]⟩

abbrev nBuf : Space → Nat
  | .hbm => 6
  | .vmem => 7
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S524288x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S8192x128, .f32⟩
  | .local _ .vmem, ⟨6, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  dot_S8192x128_S128x128_S8192x128_1_1_0_0_n_n_wf : DotDims.WF S8192x128 S128x128 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S524288x128.size a
  hwx0_4 : ∀ i : grid0.Coords, EltTy.bits .f32 = 32 ∨ (Rect.block (s := S524288x128) S8192x128.size (cc0_transform_4 i) (hinb0_4 i)).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S128x128, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S_, .f32⟩
  | .hbm, ⟨14, _⟩ => ⟨S128x128, .f32⟩
  | .hbm, ⟨15, _⟩ => ⟨S128x128, .i1⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S524288x128, .f32⟩
  | .hbm, ⟨28, _⟩ => ⟨S1x128, .f32⟩
  | .hbm, ⟨29, _⟩ => ⟨S524288x128, .f32⟩
  | .hbm, ⟨30, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_v7 : Ref sig .tc := ⟨.hbm, 21, rfl⟩
abbrev main_v8 : Ref sig .tc := ⟨.hbm, 22, rfl⟩
abbrev main_cst_5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  transposes_S128x128_S128x128_1_0 : S128x128.Transposes [1, 0] S128x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  dot_S524288x128_S128x128_S524288x128_1_0_0_1_n_n_wf : DotDims.WF S524288x128 S128x128 S524288x128 [1] [0] [0] [1] [] []

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.TernarySpec.lean ====
/-
  The mathematics both programs compute, stated once and over no program.

  A linear layer whose weight is ternary: from two real matrices `wp`, `wn` of shape [128, 128] form
  `w[o, k] = (s(wp[o, k]) - s(wn[o, k])) · ½`, where `s(v) = +1` for `v ≥ 0` and `-1` otherwise, so that
  `w[o, k] ∈ {-1, 0, +1}`; the output for a row `r` of `x : [524288, 128]` and an output feature `o` is

      out[r, o] = (∑ k < 128, x[r, k] · w[o, k]) + bias[o].

  Everything is read on the extended reals. The four float constants that occur (`+0.0`, `+1.0`, `-1.0`, `0.5`) are
  kept as the values their binary words denote; only one relation between them is ever needed, namely that the word of
  `-1.0` denotes the negation of what the word of `+1.0` denotes (`negOneWord`): one side of the comparison this
  certificate makes writes the constant `-1.0`, the other negates the constant `+1.0`.
-/
import Idealize.ShloMosaic.PureOps.Ideal
import Idealize.ShloMosaic.Lib.ValueIdx

noncomputable section

namespace Cert.TernaryLinear

open Idealize.ShloMosaic Idealize.ShloMosaic.ValueIdx

/-- The activations' shape, the two weight matrices' shape and the bias vector's shape. -/
abbrev SRows : Shape := ⟨2, ![524288, 128]⟩
abbrev SWeight : Shape := ⟨2, ![128, 128]⟩
abbrev SBias : Shape := ⟨1, ![128]⟩

/-- `s(v)`: `+1` where `v ≥ 0`, `-1` elsewhere (the comparison is the extended reals' order, so `s(+∞) = 1` and
    `s(-∞) = -1`). -/
def signPM (v : EReal) : EReal :=
  Scalar.select (Ideal.cmp .oge v (Ideal.ofBits .f32 0x00000000#32))
    (Ideal.ofBits .f32 0x3F800000#32) (Ideal.ofBits .f32 0xBF800000#32)

/-- One ternary weight from its two parameters: `(s(p) - s(n)) · ½`. -/
def tern (p n : EReal) : EReal :=
  (signPM p - signPM n) * Ideal.ofBits .f32 0x3F000000#32

/-- `out[r, o]`: row `r` of `x` against row `o` of the ternary weight, plus the bias at `o`. -/
def entry (x : FVec Ideal SRows .f32) (wp wn : FVec Ideal SWeight .f32) (b : FVec Ideal SBias .f32)
    (r : Fin 524288) (o : Fin 128) : EReal :=
  (∑ k : Fin 128, x (ix2 r k) * tern (wp (ix2 o k)) (wn (ix2 o k))) + b (ix1 o)

/-- The whole output array as one function of the four argument arrays. -/
def linear (x : FVec Ideal SRows .f32) (wp wn : FVec Ideal SWeight .f32) (b : FVec Ideal SBias .f32) :
    FVec Ideal SRows .f32 :=
  fun i => entry x wp wn b (i 0) (i 1)

/-- The word of `-1.0` denotes the negation of what the word of `+1.0` denotes: both are evaluated, to `-1` and `1`. -/
theorem negOneWord : Ideal.ofBits .f32 0xBF800000#32 = -(Ideal.ofBits .f32 0x3F800000#32) := by
  have hpos : Ideal.ofBits .f32 0x3F800000#32 = 1 := by
    simp [Ideal.ofBits, Ideal.ieee, -EReal.coe_mul]; norm_num
  have hneg : Ideal.ofBits .f32 0xBF800000#32 = -1 := by
    simp [Ideal.ofBits, Ideal.ieee, -EReal.coe_mul]; norm_num
  rw [hpos, hneg]

end Cert.TernaryLinear

end
-- ==== Proof.ReferenceLinear.lean ====
/-
  The reference computes the ternary linear layer.

  The reference program forms the ternary weight on the host — two comparisons against `0`, two selections between
  `+1` and the negation of `+1`, a difference, a product with `½` —, transposes it, contracts `x`'s second axis with
  the transposed weight's first, and adds the bias broadcast over the rows. Read at an output index `(r, o)`:
  the contraction is `∑ k, x[r, k] · wᵀ[k, o]` and `wᵀ[k, o] = w[o, k]`, so the sum runs over row `o` of the weight
  exactly as the specification's does, term by term; the bias, first given a leading unit axis and then broadcast over
  524288 rows, is `bias[o]`. The only constant spelt differently from the specification is `-1`, which the reference
  obtains by negating `+1` (`negOneWord`).
-/
import proofs.«142679_j38998303048322_2_alg».proof.Proof.Gen.ReferenceIdeal.Read
import proofs.«142679_j38998303048322_2_alg».proof.Proof.TernarySpec

noncomputable section

namespace Cert.ReferenceIdeal.RefValue

open Cert.ReferenceIdeal Cert.ReferenceIdeal.Read Cert.TernaryLinear
open Idealize.ShloMosaic Idealize.ShloMosaic.ValueIdx

/-- The contraction's left operand at output `(r, o)` and contraction index `k` is `x` at `(r, k)`. -/
theorem lhsRow (r : Fin 524288) (o k : Fin 128) : lidx_main_v12 (ix2 r o) k = ix2 r k :=
  funext fun a => Fin.ext (by match a with | ⟨0, _⟩ => rfl | ⟨1, _⟩ => rfl)

/-- Its right operand is the transposed weight at `(k, o)`, that is the weight at `(o, k)`. -/
theorem rhsRow (r : Fin 524288) (o k : Fin 128) : idx_main_v11 (ridx_main_v12 (ix2 r o) k) = ix2 o k :=
  funext fun a => Fin.ext (by match a with | ⟨0, _⟩ => rfl | ⟨1, _⟩ => rfl)

/-- The bias through its two broadcasts, read at `(r, o)`, is the bias at `o`. -/
theorem biasCol (r : Fin 524288) (o : Fin 128) : idx_main_v13 (idx_main_v14 (ix2 r o)) = ix1 o :=
  funext fun a => Fin.ext (by match a with | ⟨0, _⟩ => rfl)

/-- One entry of the reference's weight matrix is the specification's ternary weight of the two parameters there:
    each scalar constant broadcast over the matrix reads as itself, and `-1` is the negated `+1`. -/
theorem weight_at (x1 x2 : (⟨S128x128, .f32⟩ : BufTy).Contents (Elt Ideal)) (j : S128x128.Idx) :
    val_main_v10 (F := Ideal) x1 x2 j = tern (x1 j) (x2 j) := by
  rw [val_main_v10_apply, val_main_v8_apply, val_main_v3_apply, val_main_v7_apply, val_main_v1_apply,
    val_main_v5_apply, val_main_v9_apply, val_main_v0_apply, val_main_v4_apply, val_main_call0_v0_apply,
    val_main_call0_v1_apply, val_main_call1_v0_apply, val_main_call1_v1_apply]
  unfold tern signPM
  rw [negOneWord]
  rfl

/-- The reference's result array is the specification's, index by index. -/
theorem reference_linear (x0 : (⟨S524288x128, .f32⟩ : BufTy).Contents (Elt Ideal))
    (x1 x2 : (⟨S128x128, .f32⟩ : BufTy).Contents (Elt Ideal)) (x3 : (⟨S128, .f32⟩ : BufTy).Contents (Elt Ideal)) :
    val_main_v15 (F := Ideal) x0 x1 x2 x3 = linear x0 x1 x2 x3 := by
  funext i
  obtain ⟨r, o, rfl⟩ : ∃ (r : Fin 524288) (o : Fin 128), i = ix2 r o := ⟨i 0, i 1, eq_ix2 i⟩
  rw [val_main_v15_apply, val_main_v12_apply, val_main_v14_apply, val_main_v13_apply, biasCol]
  show (∑ k : Fin 128, x0 (lidx_main_v12 (ix2 r o) k) * val_main_v11 (F := Ideal) x1 x2 (ridx_main_v12 (ix2 r o) k))
      + x3 (ix1 o) = entry x0 x1 x2 x3 r o
  unfold entry
  refine congrArg (· + x3 (ix1 o)) (Finset.sum_congr rfl fun k _ => ?_)
  rw [lhsRow, val_main_v11_apply, rhsRow, weight_at]

end Cert.ReferenceIdeal.RefValue

end
-- ==== Proof.KernelStored.lean ====
/-
  What the kernel body stores, read at one index of its block.

  At a grid point the body loads an 8192-row block `xb` of `x`, the two whole weight-parameter matrices `wp`, `wn` and
  the bias as a one-row matrix `br`, forms the ternary weight `w = (s(wp) - s(wn)) · ½` entrywise, multiplies
  `xb` by `w` contracting the SECOND axis of both (so no transpose is formed: the product at `(p, q)` is
  `∑ k, xb[p, k] · w[q, k]`, row `q` of the weight), into a zero accumulator, and adds the bias row broadcast over the
  block's rows. The two roundings to a narrower float format on the way into the product are the identity on the
  extended reals. So the stored block at `(p, q)` is `(∑ k, xb[p, k] · tern(wp[q, k], wn[q, k])) + br[0, q]`.
-/
import proofs.«142679_j38998303048322_2_alg».proof.Proof.Gen.KernelIdeal.Skeleton
import proofs.«142679_j38998303048322_2_alg».proof.Proof.TernarySpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BodyValue

open Cert.KernelIdeal Cert.KernelIdeal.Gen Cert.TernaryLinear
open Idealize.ShloMosaic Idealize.ShloMosaic.ValueIdx

/-! ## The product's operand indices: both operands are contracted along their second axis -/

theorem lhsAxis0 (i : S8192x128.Idx) (q : dot_S8192x128_S128x128_S8192x128_1_1_0_0_n_n.contr.Idx) :
    (dot_S8192x128_S128x128_S8192x128_1_1_0_0_n_n.lhsIdx i q 0).val = (i 0).val := by
  unfold DotDims.lhsIdx
  rw [dif_neg (show ¬(0 : Fin S8192x128.rank) ∈ dot_S8192x128_S128x128_S8192x128_1_1_0_0_n_n.lhsBatch by decide),
    dif_pos (show (0 : Fin S8192x128.rank) ∈ dot_S8192x128_S128x128_S8192x128_1_1_0_0_n_n.lhsNonContracting by decide)]
  rfl

theorem lhsAxis1 (i : S8192x128.Idx) (q : dot_S8192x128_S128x128_S8192x128_1_1_0_0_n_n.contr.Idx) :
    (dot_S8192x128_S128x128_S8192x128_1_1_0_0_n_n.lhsIdx i q 1).val = (q ⟨0, by decide⟩).val :=
  dot_S8192x128_S128x128_S8192x128_1_1_0_0_n_n.lhsIdx_val_of_single rfl i q

theorem rhsAxis0 (i : S8192x128.Idx) (q : dot_S8192x128_S128x128_S8192x128_1_1_0_0_n_n.contr.Idx) :
    (dot_S8192x128_S128x128_S8192x128_1_1_0_0_n_n.rhsIdx i q 0).val = (i 1).val := by
  unfold DotDims.rhsIdx
  rw [dif_neg (show ¬(0 : Fin S128x128.rank) ∈ dot_S8192x128_S128x128_S8192x128_1_1_0_0_n_n.rhsBatch by decide),
    dif_pos (show (0 : Fin S128x128.rank) ∈ dot_S8192x128_S128x128_S8192x128_1_1_0_0_n_n.rhsNonContracting by decide)]
  rfl

theorem rhsAxis1 (i : S8192x128.Idx) (q : dot_S8192x128_S128x128_S8192x128_1_1_0_0_n_n.contr.Idx) :
    (dot_S8192x128_S128x128_S8192x128_1_1_0_0_n_n.rhsIdx i q 1).val = (q ⟨0, by decide⟩).val :=
  dot_S8192x128_S128x128_S8192x128_1_1_0_0_n_n.rhsIdx_val_of_single rfl i q

/-- The matrix product into the zero accumulator, read at `(p, q)`: row `p` of the left operand against ROW `q` of
    the right one. -/
theorem product_at (L : FVec Ideal S8192x128 .bf16) (R : FVec Ideal S128x128 .bf16) (p : Fin 8192) (q : Fin 128) :
    matmul dot_S8192x128_S128x128_S8192x128_1_1_0_0_n_n none L R (constant (F := Ideal) S8192x128 .f32 0x00000000#32) (ix2 p q)
      = ∑ k : Fin 128, L (ix2 p k) * R (ix2 q k) := by
  simp only [matmul]
  rw [Ideal.matmul_constant_zero_apply, ← Equiv.sum_comp (contrEquiv1 dot_S8192x128_S128x128_S8192x128_1_1_0_0_n_n 128 rfl rfl).symm]
  refine Finset.sum_congr rfl fun k _ => ?_
  have hk := contrEquiv1_symm_val dot_S8192x128_S128x128_S8192x128_1_1_0_0_n_n 128 rfl rfl k
  have el : dot_S8192x128_S128x128_S8192x128_1_1_0_0_n_n.lhsIdx (ix2 p q) ((contrEquiv1 dot_S8192x128_S128x128_S8192x128_1_1_0_0_n_n 128 rfl rfl).symm k) = ix2 p k :=
    funext fun a => Fin.ext (by
      match a with
      | ⟨0, _⟩ => exact lhsAxis0 _ _
      | ⟨1, _⟩ => exact (lhsAxis1 _ _).trans hk)
  have er : dot_S8192x128_S128x128_S8192x128_1_1_0_0_n_n.rhsIdx (ix2 p q) ((contrEquiv1 dot_S8192x128_S128x128_S8192x128_1_1_0_0_n_n 128 rfl rfl).symm k) = ix2 q k :=
    funext fun a => Fin.ext (by
      match a with
      | ⟨0, _⟩ => exact rhsAxis0 _ _
      | ⟨1, _⟩ => exact (rhsAxis1 _ _).trans hk)
  rw [el, er]

/-! ## The stored value at an index -/

/-- The body's one stored value at `(p, q)` of its block, from the four loaded blocks. -/
theorem stored_at (wp wn : Vec Ideal S128x128 .f32) (xb : Vec Ideal S8192x128 .f32) (br : Vec Ideal S1x128 .f32)
    (p : Fin 8192) (q : Fin 128) :
    k0_pay1 (F := Ideal) wp wn xb br (ix2 p q)
      = (∑ k : Fin 128, xb (ix2 p k) * tern (wp (ix2 q k)) (wn (ix2 q k))) + br (ix2 (0 : Fin 1) q) := by
  unfold k0_pay1
  refine congrArg₂ (· + ·) ?_ ?_
  · refine (product_at _ _ p q).trans ?_
    rfl
  · refine (broadcastTo_1b_ab_apply _ _ p q).trans ?_
    rw [shapeCast_self]

end Cert.KernelIdeal.BodyValue

end
-- ==== Proof.KernelArray.lean ====
/-
  From the blocks the kernel writes to the whole output array.

  The kernel runs over 64 grid points. At point `t` it reads rows `8192·t … 8192·t + 8191` of `x` (all 128 columns),
  the two weight-parameter matrices and the bias row whole (their blocks never move), and writes rows
  `8192·t … 8192·t + 8191` of the output. The bias row it reads is the bias vector given a leading unit axis by the
  host before the kernel is launched, so its entry `(0, o)` is `bias[o]`.

  What point `t` writes back is therefore block `t` of ONE function of the argument arrays, the specification's
  `linear`: at `(p, q)` of the block the stored value is `(∑ k, xb[p, k] · tern(wp[q, k], wn[q, k])) + br[0, q]` with
  `xb[p, k] = x[8192·t + p, k]`, which is `linear` at `(8192·t + p, q)`. The 64 blocks tile the 524288 rows (row `r`
  lies in the block of point `r / 8192`), so after the run the output array is `linear` of the arguments.
-/
import proofs.«142679_j38998303048322_2_alg».proof.Proof.Gen.KernelIdeal.Value
import proofs.«142679_j38998303048322_2_alg».proof.Proof.KernelStored
import proofs.«142679_j38998303048322_2_alg».proof.Proof.TernarySpec
import Idealize.ShloMosaic.Lib.ValueLayout
import Idealize.ShloMosaic.Lib.StableHlo.Run

noncomputable section

namespace Cert.KernelIdeal.ArrayValue

open Cert.KernelIdeal Cert.KernelIdeal.Gen Cert.KernelIdeal.BodyValue Cert.TernaryLinear
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## The index maps over the grid -/

theorem zeroOffsets : (![0, 0] : Fin 2 → Nat) = fun _ => 0 := funext fun a => by fin_cases a <;> rfl

/-- Decided over the 64 points: the block of `x` moves with the output's block along the rows and both stay at
    column block `0`; the weight parameters' and the bias row's blocks stay at `(0, 0)`; the output's row block is
    below 64. -/
theorem blockIndices : ∀ t : Fin cfg0.N,
    win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 63 ∧ win0_4.index t (1 : Fin 2) = 0 :=
  (by decide +kernel : ∀ t : Fin grid0.N, _)

/-- Every row block of the output is some point's. -/
theorem blockOnto : ∀ b : Fin 64, ∃ t : Fin cfg0.N, win0_4.index t = ![b.val, 0] :=
  (by decide +kernel : ∀ b : Fin 64, ∃ t : Fin grid0.N, win0_4.index t = ![b.val, 0])

/-- The output row that entry `p` of point `t`'s block lands on. -/
theorem row_lt (t : Fin cfg0.N) (p : Fin 8192) : win0_4.index t (0 : Fin 2) * 8192 + p.val < 524288 := by
  obtain ⟨-, -, -, -, -, -, -, -, h, -⟩ := blockIndices t
  have hp : p.val < 8192 := p.isLt
  omega

abbrev rowOf (t : Fin cfg0.N) (p : Fin 8192) : Fin 524288 := ⟨win0_4.index t (0 : Fin 2) * 8192 + p.val, row_lt t p⟩

/-! ## Each window's block, read at an index -/

/-- The block of `x` at point `t`: its row `p` is row `8192·t + p` of `x`. -/
theorem rows_read (c : Dev nD) (t : Fin cfg0.N) (p : Fin 8192) (k : Fin 128) :
    iblk m c 0 t (ix2 p k) = V m c main_arg0 (ix2 (rowOf t p) k) := by
  show V m c main_arg0 (((cfg0.win 0).blk t).view.emb (ix2 p k)) = _
  refine congrArg (V m c main_arg0) ?_
  obtain ⟨e0, e1, -⟩ := blockIndices t
  funext a; apply Fin.ext
  match a with
  | ⟨0, _⟩ =>
    show win0_0.index t (0 : Fin 2) * 8192 + 1 * p.val = win0_4.index t (0 : Fin 2) * 8192 + p.val
    omega
  | ⟨1, _⟩ =>
    show win0_0.index t (1 : Fin 2) * 128 + 1 * k.val = k.val
    omega

/-- The first weight parameter's block is the whole matrix. -/
theorem wp_read (c : Dev nD) (t : Fin cfg0.N) (q k : Fin 128) :
    iblk m c 1 t (ix2 q k) = V m c main_arg1 (ix2 q k) := by
  show V m c main_arg1 (((cfg0.win 1).blk t).view.emb (ix2 q k)) = _
  refine congrArg (V m c main_arg1) ?_
  obtain ⟨-, -, e0, e1, -⟩ := blockIndices t
  funext a; apply Fin.ext
  match a with
  | ⟨0, _⟩ =>
    show win0_1.index t (0 : Fin 2) * 128 + 1 * q.val = q.val
    omega
  | ⟨1, _⟩ =>
    show win0_1.index t (1 : Fin 2) * 128 + 1 * k.val = k.val
    omega

/-- So is the second one's. -/
theorem wn_read (c : Dev nD) (t : Fin cfg0.N) (q k : Fin 128) :
    iblk m c 2 t (ix2 q k) = V m c main_arg2 (ix2 q k) := by
  show V m c main_arg2 (((cfg0.win 2).blk t).view.emb (ix2 q k)) = _
  refine congrArg (V m c main_arg2) ?_
  obtain ⟨-, -, -, -, e0, e1, -⟩ := blockIndices t
  funext a; apply Fin.ext
  match a with
  | ⟨0, _⟩ =>
    show win0_2.index t (0 : Fin 2) * 128 + 1 * q.val = q.val
    omega
  | ⟨1, _⟩ =>
    show win0_2.index t (1 : Fin 2) * 128 + 1 * k.val = k.val
    omega

/-- When the kernel is launched the one-row matrix it reads the bias from is the bias vector under a leading unit
    axis: the one host operation before the launch. -/
theorem biasRow (c : Dev nD) :
    (V m c main_v0 : S1x128.Idx → EReal)
      = fun i => shapeCast S1x128 (m ((c : Thread nD τ).loc main_arg3)) shapeCasts_S128_S1x128 i := by
  dsimp only [Gen.V, Gen.hostOps0]
  after_results
  rfl

/-- The bias row's block is that whole row, whose entry `(0, q)` is `bias[q]`. -/
theorem bias_read (c : Dev nD) (t : Fin cfg0.N) (q : Fin 128) :
    iblk m c 3 t (ix2 (0 : Fin 1) q) = m ((c : Thread nD τ).loc main_arg3) (ix1 q) := by
  show V m c main_v0 (((cfg0.win 3).blk t).view.emb (ix2 (0 : Fin 1) q)) = _
  have hemb : ((cfg0.win 3).blk t).view.emb (ix2 (0 : Fin 1) q) = ix2 (0 : Fin 1) q := by
    obtain ⟨-, -, -, -, -, -, e0, e1, -⟩ := blockIndices t
    funext a; apply Fin.ext
    match a with
    | ⟨0, _⟩ =>
      show win0_3.index t (0 : Fin 2) * 1 + 1 * 0 = 0
      omega
    | ⟨1, _⟩ =>
      show win0_3.index t (1 : Fin 2) * 128 + 1 * q.val = q.val
      omega
  rw [hemb, biasRow]
  exact shapeCast_a_1a_apply _ _ (0 : Fin 1) q

/-- Entry `(p, q)` of the output's block at point `t` sits at row `8192·t + p`, column `q` of the output. -/
theorem out_emb (t : Fin cfg0.N) (p : Fin 8192) (q : Fin 128) :
    ((cfg0.win 4).blk t).view.emb (ix2 p q) = ix2 (rowOf t p) q := by
  obtain ⟨-, -, -, -, -, -, -, -, -, e1⟩ := blockIndices t
  funext a; apply Fin.ext
  match a with
  | ⟨0, _⟩ =>
    show win0_4.index t (0 : Fin 2) * 8192 + 1 * p.val = win0_4.index t (0 : Fin 2) * 8192 + p.val
    omega
  | ⟨1, _⟩ =>
    show win0_4.index t (1 : Fin 2) * 128 + 1 * q.val = q.val
    omega

/-! ## What a point writes back -/

/-- Point `t` writes back block `t` of `linear` of the arrays as the kernel finds them. -/
theorem flushed_linear (c : Dev nD) (t : Fin cfg0.N) :
    (dats m 0 c).flushed 4 t = ((cfg0.win 4).blk t).view.read (Elt Ideal)
      (linear (V m c main_arg0) (V m c main_arg1) (V m c main_arg2) (m ((c : Thread nD τ).loc main_arg3))) := by
  rw [Value.flushed4]
  unfold out0_4
  rw [View.canon_unit_zero zeroOffsets]
  simp only [View.ld_unit_zero (S := S128x128) zeroOffsets, View.ld_unit_zero (S := S8192x128) zeroOffsets,
    View.ld_unit_zero (S := S1x128) zeroOffsets]
  funext j
  obtain ⟨p, q, rfl⟩ : ∃ (p : Fin 8192) (q : Fin 128), j = ix2 p q := ⟨j 0, j 1, eq_ix2 j⟩
  show k0_pay1 (F := Ideal) (iblk m c 1 t) (iblk m c 2 t) (iblk m c 0 t) (iblk m c 3 t) (ix2 p q)
      = linear (V m c main_arg0) (V m c main_arg1) (V m c main_arg2) (m ((c : Thread nD τ).loc main_arg3))
          (((cfg0.win 4).blk t).view.emb (ix2 p q))
  rw [stored_at, out_emb]
  show _ = entry (V m c main_arg0) (V m c main_arg1) (V m c main_arg2) (m ((c : Thread nD τ).loc main_arg3)) (rowOf t p) q
  unfold entry
  refine congrArg₂ (· + ·) (Finset.sum_congr rfl fun k _ => ?_) (bias_read m c t q)
  rw [rows_read, wp_read, wn_read]

/-! ## The blocks tile the array -/

/-- An index of the output is in point `t`'s block iff each coordinate is in the block's range on its axis. -/
theorem mem_block (t : Fin cfg0.N) (i : S524288x128.Idx) :
    i ∈ ((cfg0.win 4).blk t).view.set ↔ ∀ a : Fin 2, win0_4.index t a * S8192x128.size a ≤ (i a).val
      ∧ (i a).val < win0_4.index t a * S8192x128.size a + S8192x128.size a := by
  show i ∈ ((View.whole main_v1).slice (win0_4.rect t)).set ↔ _
  rw [View.set_slice_whole, Rect.mem_set_unit]
  exact Iff.rfl

/-- Every index of the output is in the block of the point its row's quotient by 8192 names. -/
theorem covered (i : S524288x128.Idx) :
    ∃ t : Fin cfg0.N, (cfg0.win 4).flush t = true ∧ i ∈ ((cfg0.win 4).blk t).view.set := by
  have hi0 : (i 0).val < 524288 := (i 0).isLt
  have hi1 : (i 1).val < 128 := (i 1).isLt
  obtain ⟨t, ht⟩ := blockOnto ⟨(i 0).val / 8192, by omega⟩
  have q0 : win0_4.index t (0 : Fin 2) = (i 0).val / 8192 := congrFun ht 0
  have q1 : win0_4.index t (1 : Fin 2) = 0 := congrFun ht 1
  refine ⟨t, flush0_4 t, ?_⟩
  rw [mem_block]
  intro a
  match a with
  | ⟨0, _⟩ =>
    show win0_4.index t (0 : Fin 2) * 8192 ≤ (i 0).val ∧ (i 0).val < win0_4.index t (0 : Fin 2) * 8192 + 8192
    omega
  | ⟨1, _⟩ =>
    show win0_4.index t (1 : Fin 2) * 128 ≤ (i 1).val ∧ (i 1).val < win0_4.index t (1 : Fin 2) * 128 + 128
    omega

/-! ## The array after the run -/

/-- After the run the output array is `linear` of the argument arrays as launched. -/
theorem final_linear (c : Dev nD) :
    (dats m 0 c).arrAt 4 cfg0.N
      = linear (m ((c : Thread nD τ).loc main_arg0)) (m ((c : Thread nD τ).loc main_arg1))
          (m ((c : Thread nD τ).loc main_arg2)) (m ((c : Thread nD τ).loc main_arg3)) := by
  have h := (dats m 0 c).arrAt_eq_of_cover 4
    (linear (V m c main_arg0) (V m c main_arg1) (V m c main_arg2) (m ((c : Thread nD τ).loc main_arg3)))
    (fun t _ => flushed_linear m c t) covered
  rw [V_main_arg0 m c, V_main_arg1 m c, V_main_arg2 m c] at h
  exact h

/-- The kernel's run, its result named: every weakly fair execution ends with the output array at `linear` of the
    arguments and the arguments unchanged. -/
theorem run_linear : θ_run defs (onTc (τ := τ) (main (F := Ideal))) ⟨m, fun _ => 0, ρ⟩ fun r => ∀ c : Dev nD,
      r.2.mem ((c : Thread nD τ).loc main_v1)
        = linear (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_linear m c), (h c).2⟩) (Value.run_blocks m ρ)

end Cert.KernelIdeal.ArrayValue

end
-- ==== Proof.lean ====
/-
  A linear layer with a ternary weight, computed by a tiled kernel and by a plain reference: the two agree on the
  extended reals.

  Both programs take activations `x : [524288, 128]`, two weight-parameter matrices `wp, wn : [128, 128]` and a bias
  `b : [128]`, form `w[o, k] = (s(wp[o, k]) - s(wn[o, k])) · ½` with `s(v) = +1` for `v ≥ 0` and `-1` otherwise, and
  return `out[r, o] = (∑ k, x[r, k] · w[o, k]) + b[o]` (Proof/TernarySpec.lean, `linear`).

  * The reference builds `w` on the host, transposes it and contracts `x`'s second axis with the transpose's first;
    entry by entry that is the sum above over row `o` of `w` (Proof/ReferenceLinear.lean).
  * The kernel walks 64 blocks of 8192 rows. At each it rebuilds `w` from the two parameter matrices, contracts the
    second axis of the block of `x` with the second axis of `w` into a zero accumulator, and adds the bias row; its
    roundings to a narrower format before the product are the identity on the extended reals
    (Proof/KernelStored.lean). Each block it writes is a block of `linear`, and the blocks tile the output
    (Proof/KernelArray.lean).

  The two sums have the same terms in the same positions, so no rearrangement of an infinite sum is involved and the
  finiteness of the inputs is never used; the one numerical fact is that the float word of `-1.0` denotes the negation
  of what the word of `+1.0` denotes. The kernel's idealization rewrote nothing, so there is nothing to preserve
  beyond the program's own text; and each program's frame (it terminates, faults nowhere, leaves its arguments as
  they were) is the generated one, the reference's being its generated run with the result dropped.
-/
import proofs.«142679_j38998303048322_2_alg».proof.Defs
import proofs.«142679_j38998303048322_2_alg».proof.Proof.Gen.Kernel
import proofs.«142679_j38998303048322_2_alg».proof.Proof.Gen.Kernel.Skeleton
import proofs.«142679_j38998303048322_2_alg».proof.Proof.Gen.Kernel.Launch
import proofs.«142679_j38998303048322_2_alg».proof.Proof.Gen.Kernel.Points
import proofs.«142679_j38998303048322_2_alg».proof.Proof.Gen.Kernel.Frame
import proofs.«142679_j38998303048322_2_alg».proof.Proof.Gen.KernelIdeal
import proofs.«142679_j38998303048322_2_alg».proof.Proof.Gen.KernelIdeal.Skeleton
import proofs.«142679_j38998303048322_2_alg».proof.Proof.Gen.KernelIdeal.Launch
import proofs.«142679_j38998303048322_2_alg».proof.Proof.Gen.KernelIdeal.Points
import proofs.«142679_j38998303048322_2_alg».proof.Proof.Gen.KernelIdeal.Frame
import proofs.«142679_j38998303048322_2_alg».proof.Proof.Gen.ReferenceIdeal
import proofs.«142679_j38998303048322_2_alg».proof.Proof.Gen.KernelIdeal.Value
import proofs.«142679_j38998303048322_2_alg».proof.Proof.Gen.ReferenceIdeal.Run
import proofs.«142679_j38998303048322_2_alg».proof.Proof.Gen.ReferenceIdeal.Read
import proofs.«142679_j38998303048322_2_alg».proof.Proof.Gen.Pre_finite_inputs
import proofs.«142679_j38998303048322_2_alg».proof.Proof.TernarySpec
import proofs.«142679_j38998303048322_2_alg».proof.Proof.ReferenceLinear
import proofs.«142679_j38998303048322_2_alg».proof.Proof.KernelArray
import Idealize.ShloMosaic.Adequacy
import Idealize.ShloMosaic.Init

noncomputable section

namespace Cert.Proof

open Idealize.ShloMosaic Idealize.SL.Sem Cert.TernaryLinear

/-- The kernel as printed terminates, faults nowhere and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to preserve. -/
theorem preserves : Cert.preserves_Kernel_KernelIdeal := trivial

/-- From memories that agree on the four arguments, the kernel's output array and the reference's result are both
    `linear` of those arguments. -/
theorem algebraic : Cert.algebraic_KernelIdeal_ReferenceIdeal := by
  intro m ρ m' ρ' _ hagree
  refine ⟨_, Cert.KernelIdeal.ArrayValue.run_linear m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.reference_linear,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
